-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S1024x2048 : Shape := ⟨2, ![1024, 2048]⟩
abbrev S2048x2048 : Shape := ⟨2, ![2048, 2048]⟩
abbrev S2048x1024 : Shape := ⟨2, ![2048, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg7 : FVec F S2048x2048 .f32) (main_arg8 : FVec F S2048x1024 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  main_v43

def fn_part1 {F : FTy → Type} [FloatOps F] (main_arg4 : FVec F S4096x1024 .f32) (main_arg5 : FVec F S4096x2048 .f32) (main_arg6 : FVec F S1024x2048 .f32) (main_arg7 : FVec F S2048x2048 .f32) (main_arg8 : FVec F S2048x1024 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x2048 .f32) (main_arg2 : FVec F S4096x2048 .f32) (main_arg3 : FVec F S4096x2048 .f32) (main_arg4 : FVec F S4096x1024 .f32) (main_arg5 : FVec F S4096x2048 .f32) (main_arg6 : FVec F S1024x2048 .f32) (main_arg7 : FVec F S2048x2048 .f32) (main_arg8 : FVec F S2048x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S2048x2048 : Shape := ⟨2, ![2048, 2048]⟩
abbrev S2048x1024 : Shape := ⟨2, ![2048, 1024]⟩
abbrev S256x1024 : Shape := ⟨2, ![256, 1024]⟩
abbrev S256x2048 : Shape := ⟨2, ![256, 2048]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x1024, .f32⟩
  | .hbm, ⟨5, _⟩ => ⟨S4096x2048, .f32⟩
  | .hbm, ⟨6, _⟩ => ⟨S1024x2048, .f32⟩
  | .hbm, ⟨7, _⟩ => ⟨S2048x2048, .f32⟩
  | .hbm, ⟨8, _⟩ => ⟨S2048x1024, .f32⟩
  | .hbm, ⟨9, _⟩ => ⟨S4096x1024, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x1024, .f32⟩
  | .local _ .vmem, ⟨6, _⟩ => ⟨S256x1024, .f32⟩
  | .local _ .vmem, ⟨7, _⟩ => ⟨S256x2048, .f32⟩
  | .local _ .vmem, ⟨8, _⟩ => ⟨S1024x2048, .f32⟩
  | .local _ .vmem, ⟨9, _⟩ => ⟨S2048x2048, .f32⟩
  | .local _ .vmem, ⟨10, _⟩ => ⟨S2048x1024, .f32⟩
  | .local _ .vmem, ⟨11, _⟩ => ⟨S256x1024, .f32⟩
  | .local _ .vmem, ⟨12, _⟩ => ⟨S256x1024, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  inb_S1024x2048_S1024x2048_0_0 : ∀ a, (![0, 0] : Fin 2 → Nat) a + S1024x2048.size a ≤ S1024x2048.size a
  h_S1024x2048 : 0 < S1024x2048.numel
  inb_S2048x2048_S2048x2048_0_0 : ∀ a, (![0, 0] : Fin 2 → Nat) a + S2048x2048.size a ≤ S2048x2048.size a
  h_S2048x2048 : 0 < S2048x2048.numel
  iota_S256x2048_d1_w32 : S256x2048.Iotas .tc 32 [1]
  natLt_1_32 : 1 < 32
  inb_S2048x1024_S2048x1024_0_0 : ∀ a, (![0, 0] : Fin 2 → Nat) a + S2048x1024.size a ≤ S2048x1024.size a
  h_S2048x1024 : 0 < S2048x1024.numel
  dot_S256x1024_S1024x2048_S256x2048_1_0_0_1_n_n_wf : DotDims.WF S256x1024 S1024x2048 S256x2048 [1] [0] [0] [1] [] []
  dot_S256x2048_S2048x2048_S256x2048_1_0_0_1_n_n_wf : DotDims.WF S256x2048 S2048x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .f32 = 32 ∨ (Rect.block (s := S1024x2048) S1024x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .f32 = 32 ∨ (Rect.block (s := S2048x2048) S2048x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x1024.size a ≤ S2048x1024.size a
  hwx0_8 : ∀ i : grid0.Coords, EltTy.bits .f32 = 32 ∨ (Rect.block (s := S2048x1024) S2048x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S4096x2048.size a
  hwx0_10 : ∀ i : grid0.Coords, EltTy.bits .f32 = 32 ∨ (Rect.block (s := S4096x2048) S256x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S4096x2048.size a
  hwx0_11 : ∀ i : grid0.Coords, EltTy.bits .f32 = 32 ∨ (Rect.block (s := S4096x2048) S256x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S4096x2048.size a
  hwx0_12 : ∀ i : grid0.Coords, EltTy.bits .f32 = 32 ∨ (Rect.block (s := S4096x2048) S256x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x2048.size a ≤ S4096x2048.size a
  hwx0_13 : ∀ i : grid0.Coords, EltTy.bits .f32 = 32 ∨ (Rect.block (s := S4096x2048) S256x2048.size (cc0_transform_13 i) (hinb0_13 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S256x2048.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S256x2048.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_3) S256x2048.size cc0_transform_12 reads0_12 true true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_4) S256x2048.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S1024x2048 : Shape := ⟨2, ![1024, 2048]⟩
abbrev S2048x2048 : Shape := ⟨2, ![2048, 2048]⟩
abbrev S2048x1024 : Shape := ⟨2, ![2048, 1024]⟩
abbrev S_ : Shape := ⟨0, ![]⟩
abbrev S1024 : Shape := ⟨1, ![1024]⟩
abbrev S2048 : Shape := ⟨1, ![2048]⟩
abbrev S1x2048 : Shape := ⟨2, ![1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x1024, .f32⟩
  | .hbm, ⟨5, _⟩ => ⟨S4096x2048, .f32⟩
  | .hbm, ⟨6, _⟩ => ⟨S1024x2048, .f32⟩
  | .hbm, ⟨7, _⟩ => ⟨S2048x2048, .f32⟩
  | .hbm, ⟨8, _⟩ => ⟨S2048x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S2048, .f32⟩
  | .hbm, ⟨15, _⟩ => ⟨S1x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .i1⟩
  | .hbm, ⟨43, _⟩ => ⟨S_, .f32⟩
  | .hbm, ⟨44, _⟩ => ⟨S4096x2048, .f32⟩
  | .hbm, ⟨45, _⟩ => ⟨S4096x2048, .i1⟩
  | .hbm, ⟨46, _⟩ => ⟨S4096x2048, .f32⟩
  | .hbm, ⟨47, _⟩ => ⟨S_, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_call0_v0 : Ref sig .tc := ⟨.hbm, 48, rfl⟩
abbrev main_call0_v1 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_cst_11 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  concatenates_S1024_S1024_S2048_d0 : Shape.Concatenates [S1024, S1024] S2048 0
  bcast_S2048_S1x2048_1 : S2048.BroadcastsInDim S1x2048 (![1] : Fin 1 → Fin S1x2048.rank)
  bcast_S_S4096x2048 : S_.BroadcastsInDim S4096x2048 (![] : Fin 0 → Fin S4096x2048.rank)
  bcast_S1x2048_S4096x2048_0_1 : S1x2048.BroadcastsInDim S4096x2048 (![0, 1] : Fin 2 → Fin S4096x2048.rank)
  bcast_S_S4096x1024 : S_.BroadcastsInDim S4096x1024 (![] : Fin 0 → Fin S4096x1024.rank)
  dot_S4096x1024_S1024x2048_S4096x2048_1_0_0_1_n_n_wf : DotDims.WF S4096x1024 S1024x2048 S4096x2048 [1] [0] [0] [1] [] []
  dot_S4096x2048_S2048x2048_S4096x2048_1_0_0_1_n_n_wf : DotDims.WF S4096x2048 S2048x2048 S4096x2048 [1] [0] [0] [1] [] []
  dot_S4096x2048_S2048x1024_S4096x1024_1_0_0_1_n_n_wf : DotDims.WF S4096x2048 S2048x1024 S4096x1024 [1] [0] [0] [1] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.Spec.lean ====
/-
  The adaptive spiking cell's single step, row by row, on the extended reals.

  One batch row of the step reads that row of the input x (1024 entries), of the membrane potential v, the
  previous spikes z, the refractory counter r and the adaptation variable b (2048 entries each), of the output
  trace (1024 entries), and the three weight matrices whole. With

      cur q   = (sum over k < 1024 of x k * wIn (k, q)) + (sum over k < 2048 of z k * wRec (k, q))
      newV q  = (decay * v q + cur q) - z q * thr
      newB q  = decayB * b q + z q
      beta q  = 0 for q < 1024 (the non-adaptive units), the adaptation strength for 1024 <= q
      fire q  = 1 if (newV q - (thr + newB q * beta q)) / thr > 0, else 0
      newZ q  = 0 if r q > 0 (the unit is refractory), else fire q
      newR q  = min 5 (max 0 ((r q + 5 * newZ q) - 1))
      newOut j = kappa * out j + sum over k < 2048 of newZ k * wOut (k, j)

  the step returns (newOut, newZ, newV, newR, newB). Every constant is kept as the 32-bit word that denotes it:
  both programs carry the same words, so none is ever evaluated. The operations are the extended reals' own; no
  law beyond reading each operation at an index is used, so the entries need not be finite.
-/
import Idealize.ShloMosaic.PureOps.Ideal
import Idealize.ShloMosaic.Lib.ValueIdx

noncomputable section

namespace Cert.Lsnn

open Idealize.ShloMosaic Idealize.ShloMosaic.ValueIdx

/-- The three weight matrices' shapes. -/
abbrev SWin : Shape := ⟨2, ![1024, 2048]⟩
abbrev SWrec : Shape := ⟨2, ![2048, 2048]⟩
abbrev SWout : Shape := ⟨2, ![2048, 1024]⟩

/-- The words of the step's constants: zero, one, five (the refractory period), the firing threshold 0.4, the
    adaptation strength 1.6, the membrane and output-trace decay exp(-1/20), the adaptation decay exp(-1/600). -/
abbrev zero : EReal := Ideal.ofBits .f32 0x00000000#32
abbrev one : EReal := Ideal.ofBits .f32 0x3F800000#32
abbrev five : EReal := Ideal.ofBits .f32 0x40A00000#32
abbrev thr : EReal := Ideal.ofBits .f32 0x3ECCCCCD#32
abbrev strength : EReal := Ideal.ofBits .f32 0x3FCCCCCD#32
abbrev decay : EReal := Ideal.ofBits .f32 0x3F7383C6#32
abbrev decayB : EReal := Ideal.ofBits .f32 0x3F7F92DD#32

/-- The synaptic current into unit `q`: the input row through the input weights plus the previous spikes through
    the recurrent weights. -/
def cur (xr : Fin 1024 → EReal) (zr : Fin 2048 → EReal) (wIn : SWin.Idx → EReal) (wRec : SWrec.Idx → EReal)
    (q : Fin 2048) : EReal :=
  (∑ k : Fin 1024, xr k * wIn (ix2 k q)) + ∑ k : Fin 2048, zr k * wRec (ix2 k q)

/-- The new membrane potential: leaky integration of the current, reset by the previous spike. -/
def newV (xr : Fin 1024 → EReal) (vr zr : Fin 2048 → EReal) (wIn : SWin.Idx → EReal) (wRec : SWrec.Idx → EReal)
    (q : Fin 2048) : EReal :=
  (decay * vr q + cur xr zr wIn wRec q) - zr q * thr

/-- The new adaptation variable. -/
def newB (zr br : Fin 2048 → EReal) (q : Fin 2048) : EReal :=
  decayB * br q + zr q

/-- The adaptation strength of unit `q`: none for the first 1024 units, `strength` for the rest. -/
def beta (q : Fin 2048) : EReal := if q.val < 1024 then zero else strength

/-- The potential over the adaptive threshold, in units of the threshold. -/
def scaled (xr : Fin 1024 → EReal) (vr zr br : Fin 2048 → EReal) (wIn : SWin.Idx → EReal) (wRec : SWrec.Idx → EReal)
    (q : Fin 2048) : EReal :=
  Ideal.div (newV xr vr zr wIn wRec q - (thr + newB zr br q * beta q)) thr

/-- Whether the unit would fire, as the number 0 or 1. -/
def fire (xr : Fin 1024 → EReal) (vr zr br : Fin 2048 → EReal) (wIn : SWin.Idx → EReal) (wRec : SWrec.Idx → EReal)
    (q : Fin 2048) : EReal :=
  (((FloatOps.cmpf (F := Ideal) (φ := .f32) .ogt (scaled xr vr zr br wIn wRec q) zero).toNat : ℝ) : EReal)

/-- The new spike: none while the unit is refractory. -/
def newZ (xr : Fin 1024 → EReal) (vr zr rr br : Fin 2048 → EReal) (wIn : SWin.Idx → EReal) (wRec : SWrec.Idx → EReal)
    (q : Fin 2048) : EReal :=
  Scalar.select (FloatOps.cmpf (F := Ideal) (φ := .f32) .ogt (rr q) zero) zero (fire xr vr zr br wIn wRec q)

/-- The new refractory counter, kept within [0, 5]. -/
def newR (xr : Fin 1024 → EReal) (vr zr rr br : Fin 2048 → EReal) (wIn : SWin.Idx → EReal) (wRec : SWrec.Idx → EReal)
    (q : Fin 2048) : EReal :=
  min five (max zero ((rr q + five * newZ xr vr zr rr br wIn wRec q) - one))

/-- The new output trace: its decay plus the new spikes through the output weights. -/
def newOut (xr orow : Fin 1024 → EReal) (vr zr rr br : Fin 2048 → EReal) (wIn : SWin.Idx → EReal)
    (wRec : SWrec.Idx → EReal) (wOut : SWout.Idx → EReal) (j : Fin 1024) : EReal :=
  decay * orow j + ∑ k : Fin 2048, newZ xr vr zr rr br wIn wRec k * wOut (ix2 k j)

/-- A one-bit word read as a float through a 32-bit signed integer is the bit read unsigned: both are 0 or 1. -/
theorem toInt_setWidth_bit (b : BitVec 1) : ((b.setWidth 32).toInt : ℝ) = (b.toNat : ℝ) := by
  by_cases h : b = 1#1
  · subst h; norm_num
  · have h0 := eq_zero_of_ne_one h; subst h0; norm_num

end Cert.Lsnn

end
-- ==== Proof.KernelPayload.lean ====
/-
  The kernel body's arithmetic, read at an entry (p, q) of a 256-row block: each value the body stores is the
  row-by-row step applied to row p of the blocks it loaded (and to the weight matrices, which it loads whole).

  The body multiplies whole blocks: the entry (p, q) of a block product is the sum over the contracted index k of
  the left block at (p, k) times the weights at (k, q), so it reads only row p of the left block. The adaptation
  strength is selected by comparing the column number with 1024, as 32-bit signed words: a column number is below
  2048, so the comparison is the one between the numbers. The firing bit is widened to 32 bits and read as a signed
  integer: that is the bit itself, 0 or 1.
-/
import proofs.«104655_j12575664243448_2_alg».proof.Proof.Gen.KernelIdeal.Skeleton
import proofs.«104655_j12575664243448_2_alg».proof.Proof.Spec
import Idealize.ShloMosaic.Lib.Pipeline.Value
import Idealize.ShloMosaic.Lib.ValueIdx
import Idealize.ShloMosaic.Lib.Affine
import Idealize.ShloMosaic.PureOps.Ideal.Laws

noncomputable section

namespace Cert.Lsnn.Kernel

open Cert.KernelIdeal Cert.KernelIdeal.Gen Idealize.ShloMosaic Idealize.ShloMosaic.ValueIdx Cert.Lsnn

/-! ## The three block products as sums -/

theorem prod_in_l0 (i : S256x2048.Idx) (c : dot_S256x1024_S1024x2048_S256x2048_1_0_0_1_n_n.contr.Idx) : (dot_S256x1024_S1024x2048_S256x2048_1_0_0_1_n_n.lhsIdx i c 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem prod_in_l1 (i : S256x2048.Idx) (c : dot_S256x1024_S1024x2048_S256x2048_1_0_0_1_n_n.contr.Idx) : (dot_S256x1024_S1024x2048_S256x2048_1_0_0_1_n_n.lhsIdx i c 1).val = (c ⟨0, by decide⟩).val :=
  dot_S256x1024_S1024x2048_S256x2048_1_0_0_1_n_n.lhsIdx_val_of_single rfl i c
theorem prod_in_r0 (i : S256x2048.Idx) (c : dot_S256x1024_S1024x2048_S256x2048_1_0_0_1_n_n.contr.Idx) : (dot_S256x1024_S1024x2048_S256x2048_1_0_0_1_n_n.rhsIdx i c 0).val = (c ⟨0, by decide⟩).val :=
  dot_S256x1024_S1024x2048_S256x2048_1_0_0_1_n_n.rhsIdx_val_of_single rfl i c
theorem prod_in_r1 (i : S256x2048.Idx) (c : dot_S256x1024_S1024x2048_S256x2048_1_0_0_1_n_n.contr.Idx) : (dot_S256x1024_S1024x2048_S256x2048_1_0_0_1_n_n.rhsIdx i c 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl
/-- The input block through the input weights, at (p, q). -/
theorem prod_in (a : FVec Ideal S256x1024 .f32) (w : FVec Ideal S1024x2048 .f32) (p : Fin 256) (q : Fin 2048) :
    (matmul dot_S256x1024_S1024x2048_S256x2048_1_0_0_1_n_n (some .fp32) a w (constant S256x2048 .f32 0x00000000#32) : FVec Ideal S256x2048 .f32) (ix2 p q)
      = ∑ k : Fin 1024, a (ix2 p k) * w (ix2 k q) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p q) ((contrEquiv1 dot_S256x1024_S1024x2048_S256x2048_1_0_0_1_n_n 1024 rfl rfl).symm k) = ix2 p k := funext fun x => Fin.ext (by
    match x with
    | ⟨0, _⟩ => exact prod_in_l0 _ _
    | ⟨1, _⟩ => exact (prod_in_l1 _ _).trans hk)
  have er : dot_S256x1024_S1024x2048_S256x2048_1_0_0_1_n_n.rhsIdx (ix2 p q) ((contrEquiv1 dot_S256x1024_S1024x2048_S256x2048_1_0_0_1_n_n 1024 rfl rfl).symm k) = ix2 k q := funext fun x => Fin.ext (by
    match x with
    | ⟨0, _⟩ => exact (prod_in_r0 _ _).trans hk
    | ⟨1, _⟩ => exact prod_in_r1 _ _)
  rw [el, er]

theorem prod_rec_l0 (i : S256x2048.Idx) (c : dot_S256x2048_S2048x2048_S256x2048_1_0_0_1_n_n.contr.Idx) : (dot_S256x2048_S2048x2048_S256x2048_1_0_0_1_n_n.lhsIdx i c 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem prod_rec_l1 (i : S256x2048.Idx) (c : dot_S256x2048_S2048x2048_S256x2048_1_0_0_1_n_n.contr.Idx) : (dot_S256x2048_S2048x2048_S256x2048_1_0_0_1_n_n.lhsIdx i c 1).val = (c ⟨0, by decide⟩).val :=
  dot_S256x2048_S2048x2048_S256x2048_1_0_0_1_n_n.lhsIdx_val_of_single rfl i c
theorem prod_rec_r0 (i : S256x2048.Idx) (c : dot_S256x2048_S2048x2048_S256x2048_1_0_0_1_n_n.contr.Idx) : (dot_S256x2048_S2048x2048_S256x2048_1_0_0_1_n_n.rhsIdx i c 0).val = (c ⟨0, by decide⟩).val :=
  dot_S256x2048_S2048x2048_S256x2048_1_0_0_1_n_n.rhsIdx_val_of_single rfl i c
theorem prod_rec_r1 (i : S256x2048.Idx) (c : dot_S256x2048_S2048x2048_S256x2048_1_0_0_1_n_n.contr.Idx) : (dot_S256x2048_S2048x2048_S256x2048_1_0_0_1_n_n.rhsIdx i c 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl
/-- The previous spikes' block through the recurrent weights, at (p, q). -/
theorem prod_rec (a : FVec Ideal S256x2048 .f32) (w : FVec Ideal S2048x2048 .f32) (p : Fin 256) (q : Fin 2048) :
    (matmul dot_S256x2048_S2048x2048_S256x2048_1_0_0_1_n_n (some .fp32) a w (constant S256x2048 .f32 0x00000000#32) : FVec Ideal S256x2048 .f32) (ix2 p q)
      = ∑ k : Fin 2048, a (ix2 p k) * w (ix2 k q) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p q) ((contrEquiv1 dot_S256x2048_S2048x2048_S256x2048_1_0_0_1_n_n 2048 rfl rfl).symm k) = ix2 p k := funext fun x => Fin.ext (by
    match x with
    | ⟨0, _⟩ => exact prod_rec_l0 _ _
    | ⟨1, _⟩ => exact (prod_rec_l1 _ _).trans hk)
  have er : dot_S256x2048_S2048x2048_S256x2048_1_0_0_1_n_n.rhsIdx (ix2 p q) ((contrEquiv1 dot_S256x2048_S2048x2048_S256x2048_1_0_0_1_n_n 2048 rfl rfl).symm k) = ix2 k q := funext fun x => Fin.ext (by
    match x with
    | ⟨0, _⟩ => exact (prod_rec_r0 _ _).trans hk
    | ⟨1, _⟩ => exact prod_rec_r1 _ _)
  rw [el, er]

theorem prod_out_l0 (i : S256x1024.Idx) (c : dot_S256x2048_S2048x1024_S256x1024_1_0_0_1_n_n.contr.Idx) : (dot_S256x2048_S2048x1024_S256x1024_1_0_0_1_n_n.lhsIdx i c 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem prod_out_l1 (i : S256x1024.Idx) (c : dot_S256x2048_S2048x1024_S256x1024_1_0_0_1_n_n.contr.Idx) : (dot_S256x2048_S2048x1024_S256x1024_1_0_0_1_n_n.lhsIdx i c 1).val = (c ⟨0, by decide⟩).val :=
  dot_S256x2048_S2048x1024_S256x1024_1_0_0_1_n_n.lhsIdx_val_of_single rfl i c
theorem prod_out_r0 (i : S256x1024.Idx) (c : dot_S256x2048_S2048x1024_S256x1024_1_0_0_1_n_n.contr.Idx) : (dot_S256x2048_S2048x1024_S256x1024_1_0_0_1_n_n.rhsIdx i c 0).val = (c ⟨0, by decide⟩).val :=
  dot_S256x2048_S2048x1024_S256x1024_1_0_0_1_n_n.rhsIdx_val_of_single rfl i c
theorem prod_out_r1 (i : S256x1024.Idx) (c : dot_S256x2048_S2048x1024_S256x1024_1_0_0_1_n_n.contr.Idx) : (dot_S256x2048_S2048x1024_S256x1024_1_0_0_1_n_n.rhsIdx i c 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
/-- A block of spikes through the output weights, at (p, j). -/
theorem prod_out (a : FVec Ideal S256x2048 .f32) (w : FVec Ideal S2048x1024 .f32) (p : Fin 256) (q : Fin 1024) :
    (matmul dot_S256x2048_S2048x1024_S256x1024_1_0_0_1_n_n (some .fp32) a w (constant S256x1024 .f32 0x00000000#32) : FVec Ideal S256x1024 .f32) (ix2 p q)
      = ∑ k : Fin 2048, a (ix2 p k) * w (ix2 k q) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun x => Fin.ext (by
    match x with
    | ⟨0, _⟩ => exact prod_out_l0 _ _
    | ⟨1, _⟩ => exact (prod_out_l1 _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun x => Fin.ext (by
    match x with
    | ⟨0, _⟩ => exact (prod_out_r0 _ _).trans hk
    | ⟨1, _⟩ => exact prod_out_r1 _ _)
  rw [el, er]

/-! ## The adaptation strength, selected by the column number -/

/-- A column number, as a 32-bit word read signed, is the number. -/
theorem toInt_col (q : Fin 2048) : (BitVec.ofNat 32 q.val).toInt = (q.val : ℤ) := by
  have hq := q.isLt
  rw [BitVec.toInt_eq_toNat_cond, BitVec.toNat_ofNat, Nat.mod_eq_of_lt (by omega)]
  rw [if_pos (by omega)]

/-- The selected strength at (p, q): zero for the first 1024 columns, the strength for the rest. -/
theorem strength_at (p : Fin 256) (q : Fin 2048) :
    (select (cmpi .slt (iota .tc S256x2048 32 [1] iota_S256x2048_d1_w32) (broadcast S256x2048 1024#32))
      (broadcast S256x2048 (Scalar.ofBits (F := Ideal) .f32 0x00000000#32))
      (broadcast S256x2048 (Scalar.ofBits (F := Ideal) .f32 0x3FCCCCCD#32)) : FVec Ideal S256x2048 .f32) (ix2 p q)
      = beta q := by
  rw [select_apply]
  simp only [broadcast_apply]
  show Scalar.select (IntOp.cmpi .slt (iota .tc S256x2048 32 [1] iota_S256x2048_d1_w32 (ix2 p q)) 1024#32) _ _ = _
  rw [iota_single_apply]
  show Scalar.select (IntOp.cmpi .slt (BitVec.ofNat 32 q.val) 1024#32) _ _ = _
  unfold beta
  have h1024 : (1024#32 : BitVec 32).toInt = 1024 := by decide
  by_cases h : q.val < 1024
  · have hc : IntOp.cmpi .slt (BitVec.ofNat 32 q.val) 1024#32 = 1#1 :=
      IntOp.cmpi_slt.mpr (by rw [toInt_col, h1024]; omega)
    rw [hc, select_one, if_pos h]
    rfl
  · have hc : ¬ IntOp.cmpi .slt (BitVec.ofNat 32 q.val) 1024#32 = 1#1 := fun hh => by
      have := IntOp.cmpi_slt.mp hh
      rw [toInt_col, h1024] at this
      omega
    rw [eq_zero_of_ne_one hc, select_zero, if_neg h]
    rfl

/-! ## The stored values at an entry -/

variable (x : Vec Ideal S256x1024 .f32) (v z r b : Vec Ideal S256x2048 .f32) (o : Vec Ideal S256x1024 .f32)
variable (wIn : Vec Ideal S1024x2048 .f32) (wRec : Vec Ideal S2048x2048 .f32) (wOut : Vec Ideal S2048x1024 .f32)

/-- The stored membrane potential at (p, q). -/
theorem potential_at (p : Fin 256) (q : Fin 2048) :
    k0_pay4 (F := Ideal) x z wIn wRec v (ix2 p q)
      = newV (fun k => x (ix2 p k)) (fun k => v (ix2 p k)) (fun k => z (ix2 p k)) wIn wRec q := by
  unfold k0_pay4
  simp only [subf_apply, addf_apply, mulf_apply, broadcast_apply]
  rw [prod_in x wIn p q, prod_rec z wRec p q]
  rfl

/-- The stored adaptation variable at (p, q). -/
theorem adaptation_at (p : Fin 256) (q : Fin 2048) :
    k0_pay5 (F := Ideal) z b (ix2 p q) = newB (fun k => z (ix2 p k)) (fun k => b (ix2 p k)) q := by
  unfold k0_pay5
  simp only [addf_apply, mulf_apply, broadcast_apply]
  rfl

/-- The firing value at (p, q). -/
theorem fire_at (p : Fin 256) (q : Fin 2048) :
    k0_pay6 (F := Ideal) x z wIn wRec v b (ix2 p q)
      = fire (fun k => x (ix2 p k)) (fun k => v (ix2 p k)) (fun k => z (ix2 p k)) (fun k => b (ix2 p k)) wIn wRec q := by
  unfold k0_pay6
  rw [sitofp_apply, extui_apply, cmpf_apply]
  simp only [divf_apply, subf_apply, addf_apply, mulf_apply, broadcast_apply]
  rw [potential_at x v z wIn wRec p q, adaptation_at z b p q, strength_at p q]
  exact congrArg (fun t : ℝ => (t : EReal)) (toInt_setWidth_bit _)

/-- The stored spikes at (p, q). -/
theorem spikes_at (p : Fin 256) (q : Fin 2048) :
    k0_pay1 (F := Ideal) (k0_pay6 x z wIn wRec v b) r (ix2 p q)
      = newZ (fun k => x (ix2 p k)) (fun k => v (ix2 p k)) (fun k => z (ix2 p k)) (fun k => r (ix2 p k))
          (fun k => b (ix2 p k)) wIn wRec q := by
  unfold k0_pay1
  rw [select_apply, cmpf_apply]
  simp only [broadcast_apply]
  rw [fire_at x v z b wIn wRec p q]
  rfl

/-- The stored refractory counter at (p, q). -/
theorem refractory_at (p : Fin 256) (q : Fin 2048) :
    k0_pay2 (F := Ideal) (k0_pay6 x z wIn wRec v b) r (ix2 p q)
      = newR (fun k => x (ix2 p k)) (fun k => v (ix2 p k)) (fun k => z (ix2 p k)) (fun k => r (ix2 p k))
          (fun k => b (ix2 p k)) wIn wRec q := by
  unfold k0_pay2
  simp only [minimumf_apply, maximumf_apply, subf_apply, addf_apply, mulf_apply, broadcast_apply]
  rw [spikes_at x v z r b wIn wRec p q]
  rfl

/-- The stored output trace at (p, j). -/
theorem trace_at (p : Fin 256) (j : Fin 1024) :
    k0_pay3 (F := Ideal) (k0_pay6 x z wIn wRec v b) r wOut o (ix2 p j)
      = newOut (fun k => x (ix2 p k)) (fun k => o (ix2 p k)) (fun k => v (ix2 p k)) (fun k => z (ix2 p k))
          (fun k => r (ix2 p k)) (fun k => b (ix2 p k)) wIn wRec wOut j := by
  unfold k0_pay3
  simp only [addf_apply, mulf_apply, broadcast_apply]
  rw [prod_out (k0_pay1 (k0_pay6 x z wIn wRec v b) r) wOut p j]
  simp only [spikes_at x v z r b wIn wRec p]
  rfl

end Cert.Lsnn.Kernel

end
-- ==== Proof.Arrays.lean ====
/-
  The step over whole arrays: the entry (i, q) of each result is the row-by-row step applied to row i of the batch
  arrays, at column q. Both programs are compared against these five functions of the nine argument arrays.
-/
import proofs.«104655_j12575664243448_2_alg».proof.Proof.Spec

noncomputable section

namespace Cert.Lsnn

open Idealize.ShloMosaic Idealize.ShloMosaic.ValueIdx

/-- The batch arrays' shapes: 4096 rows of 1024 inputs or outputs, 4096 rows of 2048 units. -/
abbrev SIn : Shape := ⟨2, ![4096, 1024]⟩
abbrev SUnits : Shape := ⟨2, ![4096, 2048]⟩

variable (x o : SIn.Idx → EReal) (v z r b : SUnits.Idx → EReal)
variable (wIn : SWin.Idx → EReal) (wRec : SWrec.Idx → EReal) (wOut : SWout.Idx → EReal)

/-- The new adaptation variable, as an array. -/
def stepB : SUnits.Idx → EReal := fun i =>
  newB (fun k => z (ix2 (i 0) k)) (fun k => b (ix2 (i 0) k)) (i 1)

/-- The new membrane potential, as an array. -/
def stepV : SUnits.Idx → EReal := fun i =>
  newV (fun k => x (ix2 (i 0) k)) (fun k => v (ix2 (i 0) k)) (fun k => z (ix2 (i 0) k)) wIn wRec (i 1)

/-- The new spikes, as an array. -/
def stepZ : SUnits.Idx → EReal := fun i =>
  newZ (fun k => x (ix2 (i 0) k)) (fun k => v (ix2 (i 0) k)) (fun k => z (ix2 (i 0) k)) (fun k => r (ix2 (i 0) k))
    (fun k => b (ix2 (i 0) k)) wIn wRec (i 1)

/-- The new refractory counter, as an array. -/
def stepR : SUnits.Idx → EReal := fun i =>
  newR (fun k => x (ix2 (i 0) k)) (fun k => v (ix2 (i 0) k)) (fun k => z (ix2 (i 0) k)) (fun k => r (ix2 (i 0) k))
    (fun k => b (ix2 (i 0) k)) wIn wRec (i 1)

/-- The new output trace, as an array. -/
def stepOut : SIn.Idx → EReal := fun i =>
  newOut (fun k => x (ix2 (i 0) k)) (fun k => o (ix2 (i 0) k)) (fun k => v (ix2 (i 0) k)) (fun k => z (ix2 (i 0) k))
    (fun k => r (ix2 (i 0) k)) (fun k => b (ix2 (i 0) k)) wIn wRec wOut (i 1)

end Cert.Lsnn

end
-- ==== Proof.KernelBlocks.lean ====
/-
  From blocks to arrays. The kernel runs over 16 grid points; point t stages rows 256 t to 256 t + 255 of each batch
  array (all their columns) and the three weight matrices whole, and writes back the same rows of the five results.

  What point t writes back to a result is block t of the step's array: the entry (p, q) of the block is the
  row-by-row step of row p of the staged blocks, and row p of a staged block is row 256 t + p of its array, while a
  staged weight matrix is the matrix. Row i of a result lies in the block of point i / 256, so the 16 blocks cover
  each result, and each result array ends as the step's array of the argument arrays.
-/
import proofs.«104655_j12575664243448_2_alg».proof.Proof.Gen.KernelIdeal.Value
import proofs.«104655_j12575664243448_2_alg».proof.Proof.KernelPayload
import proofs.«104655_j12575664243448_2_alg».proof.Proof.Arrays

set_option maxRecDepth 16384

noncomputable section

namespace Cert.Lsnn.Blocks

open Cert.KernelIdeal Cert.KernelIdeal.Gen Idealize.ShloMosaic Idealize.ShloMosaic.TcCoe Idealize.SL.Sem
open Idealize.ShloMosaic.ValueIdx Cert.Lsnn Cert.Lsnn.Kernel
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 16 points: a batch window's block index is (t, 0), a weight window's (0, 0) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-! ## Row p of a staged block is row 256 t + p of its array; a staged weight matrix is the matrix -/

theorem read0 (c : Dev nD) (t : Fin cfg0.N) (p : Fin 256) (i0 : Fin 4096) (h : i0.val = t.val * 256 + p.val) :
    (fun k : Fin 1024 => iblk m c 0 t (ix2 p k)) = fun k => V m c main_arg0 (ix2 i0 k) := by
  funext k
  show V m c main_arg0 (((cfg0.win 0).blk t).view.emb (ix2 p k)) = V m c main_arg0 (ix2 i0 k)
  obtain ⟨e0, e1⟩ := idx0 t
  refine congrArg (V m c main_arg0) (funext fun a => Fin.ext ?_)
  match a with
  | ⟨0, _⟩ => show win0_0.index t (0 : Fin 2) * 256 + 1 * p.val = i0.val; omega
  | ⟨1, _⟩ => show win0_0.index t (1 : Fin 2) * 1024 + 1 * k.val = k.val; omega

theorem read1 (c : Dev nD) (t : Fin cfg0.N) (p : Fin 256) (i0 : Fin 4096) (h : i0.val = t.val * 256 + p.val) :
    (fun k : Fin 2048 => iblk m c 1 t (ix2 p k)) = fun k => V m c main_arg1 (ix2 i0 k) := by
  funext k
  show V m c main_arg1 (((cfg0.win 1).blk t).view.emb (ix2 p k)) = V m c main_arg1 (ix2 i0 k)
  obtain ⟨e0, e1⟩ := idx1 t
  refine congrArg (V m c main_arg1) (funext fun a => Fin.ext ?_)
  match a with
  | ⟨0, _⟩ => show win0_1.index t (0 : Fin 2) * 256 + 1 * p.val = i0.val; omega
  | ⟨1, _⟩ => show win0_1.index t (1 : Fin 2) * 2048 + 1 * k.val = k.val; omega

theorem read2 (c : Dev nD) (t : Fin cfg0.N) (p : Fin 256) (i0 : Fin 4096) (h : i0.val = t.val * 256 + p.val) :
    (fun k : Fin 2048 => iblk m c 2 t (ix2 p k)) = fun k => V m c main_arg2 (ix2 i0 k) := by
  funext k
  show V m c main_arg2 (((cfg0.win 2).blk t).view.emb (ix2 p k)) = V m c main_arg2 (ix2 i0 k)
  obtain ⟨e0, e1⟩ := idx2 t
  refine congrArg (V m c main_arg2) (funext fun a => Fin.ext ?_)
  match a with
  | ⟨0, _⟩ => show win0_2.index t (0 : Fin 2) * 256 + 1 * p.val = i0.val; omega
  | ⟨1, _⟩ => show win0_2.index t (1 : Fin 2) * 2048 + 1 * k.val = k.val; omega

theorem read3 (c : Dev nD) (t : Fin cfg0.N) (p : Fin 256) (i0 : Fin 4096) (h : i0.val = t.val * 256 + p.val) :
    (fun k : Fin 2048 => iblk m c 3 t (ix2 p k)) = fun k => V m c main_arg3 (ix2 i0 k) := by
  funext k
  show V m c main_arg3 (((cfg0.win 3).blk t).view.emb (ix2 p k)) = V m c main_arg3 (ix2 i0 k)
  obtain ⟨e0, e1⟩ := idx3 t
  refine congrArg (V m c main_arg3) (funext fun a => Fin.ext ?_)
  match a with
  | ⟨0, _⟩ => show win0_3.index t (0 : Fin 2) * 256 + 1 * p.val = i0.val; omega
  | ⟨1, _⟩ => show win0_3.index t (1 : Fin 2) * 2048 + 1 * k.val = k.val; omega

theorem read4 (c : Dev nD) (t : Fin cfg0.N) (p : Fin 256) (i0 : Fin 4096) (h : i0.val = t.val * 256 + p.val) :
    (fun k : Fin 1024 => iblk m c 4 t (ix2 p k)) = fun k => V m c main_arg4 (ix2 i0 k) := by
  funext k
  show V m c main_arg4 (((cfg0.win 4).blk t).view.emb (ix2 p k)) = V m c main_arg4 (ix2 i0 k)
  obtain ⟨e0, e1⟩ := idx4 t
  refine congrArg (V m c main_arg4) (funext fun a => Fin.ext ?_)
  match a with
  | ⟨0, _⟩ => show win0_4.index t (0 : Fin 2) * 256 + 1 * p.val = i0.val; omega
  | ⟨1, _⟩ => show win0_4.index t (1 : Fin 2) * 1024 + 1 * k.val = k.val; omega

theorem read5 (c : Dev nD) (t : Fin cfg0.N) (p : Fin 256) (i0 : Fin 4096) (h : i0.val = t.val * 256 + p.val) :
    (fun k : Fin 2048 => iblk m c 5 t (ix2 p k)) = fun k => V m c main_arg5 (ix2 i0 k) := by
  funext k
  show V m c main_arg5 (((cfg0.win 5).blk t).view.emb (ix2 p k)) = V m c main_arg5 (ix2 i0 k)
  obtain ⟨e0, e1⟩ := idx5 t
  refine congrArg (V m c main_arg5) (funext fun a => Fin.ext ?_)
  match a with
  | ⟨0, _⟩ => show win0_5.index t (0 : Fin 2) * 256 + 1 * p.val = i0.val; omega
  | ⟨1, _⟩ => show win0_5.index t (1 : Fin 2) * 2048 + 1 * k.val = k.val; omega

theorem read6 (c : Dev nD) (t : Fin cfg0.N) : iblk m c 6 t = V m c main_arg6 := by
  funext y
  show V m c main_arg6 (((cfg0.win 6).blk t).view.emb y) = V m c main_arg6 y
  obtain ⟨e0, e1⟩ := idx6 t
  refine congrArg (V m c main_arg6) (funext fun a => Fin.ext ?_)
  match a with
  | ⟨0, _⟩ => show win0_6.index t (0 : Fin 2) * 1024 + 1 * (y 0).val = (y 0).val; omega
  | ⟨1, _⟩ => show win0_6.index t (1 : Fin 2) * 2048 + 1 * (y 1).val = (y 1).val; omega

theorem read7 (c : Dev nD) (t : Fin cfg0.N) : iblk m c 7 t = V m c main_arg7 := by
  funext y
  show V m c main_arg7 (((cfg0.win 7).blk t).view.emb y) = V m c main_arg7 y
  obtain ⟨e0, e1⟩ := idx7 t
  refine congrArg (V m c main_arg7) (funext fun a => Fin.ext ?_)
  match a with
  | ⟨0, _⟩ => show win0_7.index t (0 : Fin 2) * 2048 + 1 * (y 0).val = (y 0).val; omega
  | ⟨1, _⟩ => show win0_7.index t (1 : Fin 2) * 2048 + 1 * (y 1).val = (y 1).val; omega

theorem read8 (c : Dev nD) (t : Fin cfg0.N) : iblk m c 8 t = V m c main_arg8 := by
  funext y
  show V m c main_arg8 (((cfg0.win 8).blk t).view.emb y) = V m c main_arg8 y
  obtain ⟨e0, e1⟩ := idx8 t
  refine congrArg (V m c main_arg8) (funext fun a => Fin.ext ?_)
  match a with
  | ⟨0, _⟩ => show win0_8.index t (0 : Fin 2) * 2048 + 1 * (y 0).val = (y 0).val; omega
  | ⟨1, _⟩ => show win0_8.index t (1 : Fin 2) * 1024 + 1 * (y 1).val = (y 1).val; omega

/-! ## Output window 9: the output trace -/

/-- What point `t` writes back is block `t` of the step's array: rows 256 t to 256 t + 255, every column. -/
theorem flushed9_eq (c : Dev nD) (t : Fin cfg0.N) :
    (dats m 0 c).flushed 9 t
      = ((cfg0.win 9).blk t).view.read (Elt Ideal) (stepOut (V m c main_arg0) (V m c main_arg4) (V m c main_arg1) (V m c main_arg2) (V m c main_arg3) (V m c main_arg5) (V m c main_arg6) (V m c main_arg7) (V m c main_arg8)) := by
  rw [Cert.KernelIdeal.Value.flushed9 m c t]
  unfold out0_9
  rw [View.canon_unit_zero hz]
  simp only [View.ld_unit_zero (S := S256x1024) hz, View.ld_unit_zero (S := S256x2048) hz, View.ld_unit_zero (S := S1024x2048) hz, View.ld_unit_zero (S := S2048x2048) hz, View.ld_unit_zero (S := S2048x1024) hz]
  funext j
  obtain ⟨p, q, rfl⟩ : ∃ (p : Fin 256) (q : Fin 1024), j = ix2 p q := ⟨j 0, j 1, eq_ix2 j⟩
  show k0_pay3 (k0_pay6 (iblk m c 0 t) (iblk m c 2 t) (iblk m c 6 t) (iblk m c 7 t) (iblk m c 1 t) (iblk m c 5 t)) (iblk m c 3 t) (iblk m c 8 t) (iblk m c 4 t) (ix2 p q)
    = stepOut (V m c main_arg0) (V m c main_arg4) (V m c main_arg1) (V m c main_arg2) (V m c main_arg3) (V m c main_arg5) (V m c main_arg6) (V m c main_arg7) (V m c main_arg8) (((cfg0.win 9).blk t).view.emb (ix2 p q))
  refine (trace_at (iblk m c 0 t) (iblk m c 1 t) (iblk m c 2 t) (iblk m c 3 t) (iblk m c 5 t) (iblk m c 4 t) (iblk m c 6 t) (iblk m c 7 t) (iblk m c 8 t) p q).trans ?_
  obtain ⟨e0, e1⟩ := idx9 t
  have h0 : ((((cfg0.win 9).blk t).view.emb (ix2 p q)) 0).val = t.val * 256 + p.val := by
    show win0_9.index t (0 : Fin 2) * 256 + 1 * p.val = _; omega
  have h1 : (((cfg0.win 9).blk t).view.emb (ix2 p q)) 1 = q :=
    Fin.ext (by show win0_9.index t (1 : Fin 2) * 1024 + 1 * q.val = q.val; omega)
  unfold stepOut
  rw [h1, read0 m c t p _ h0, read4 m c t p _ h0, read1 m c t p _ h0, read2 m c t p _ h0, read3 m c t p _ h0, read5 m c t p _ h0, read6 m c t, read7 m c t, read8 m c t]

/-- An entry of the array is in point `t`'s block iff each coordinate is in the block's range on its axis. -/
theorem mem_blk9 (t : Fin cfg0.N) (i : S4096x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v0_0).slice (win0_9.rect t)).set ↔ _
  rw [View.set_slice_whole, Rect.mem_set_unit]
  exact Iff.rfl

/-- Every entry is in some point's block: row i is in block i / 256. -/
theorem cover9 (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  have hN : grid0.N = 16 := N_0
  let t : Fin cfg0.N := ⟨(i 0).val / 256, by show _ < grid0.N; omega⟩
  have ht : t.val = (i 0).val / 256 := rfl
  obtain ⟨e0, e1⟩ := idx9 t
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

/-- The array after the run is the step's. -/
theorem final9 (c : Dev nD) :
    (dats m 0 c).arrAt 9 cfg0.N = stepOut (V m c main_arg0) (V m c main_arg4) (V m c main_arg1) (V m c main_arg2) (V m c main_arg3) (V m c main_arg5) (V m c main_arg6) (V m c main_arg7) (V m c main_arg8) :=
  (dats m 0 c).arrAt_eq_of_cover 9 _ (fun t _ => flushed9_eq m c t) cover9

/-! ## Output window 10: the spikes -/

/-- What point `t` writes back is block `t` of the step's array: rows 256 t to 256 t + 255, every column. -/
theorem flushed10_eq (c : Dev nD) (t : Fin cfg0.N) :
    (dats m 0 c).flushed 10 t
      = ((cfg0.win 10).blk t).view.read (Elt Ideal) (stepZ (V m c main_arg0) (V m c main_arg1) (V m c main_arg2) (V m c main_arg3) (V m c main_arg5) (V m c main_arg6) (V m c main_arg7)) := by
  rw [Cert.KernelIdeal.Value.flushed10 m c t]
  unfold out0_10
  rw [View.canon_unit_zero hz]
  simp only [View.ld_unit_zero (S := S256x1024) hz, View.ld_unit_zero (S := S256x2048) hz, View.ld_unit_zero (S := S1024x2048) hz, View.ld_unit_zero (S := S2048x2048) hz, View.ld_unit_zero (S := S2048x1024) hz]
  funext j
  obtain ⟨p, q, rfl⟩ : ∃ (p : Fin 256) (q : Fin 2048), j = ix2 p q := ⟨j 0, j 1, eq_ix2 j⟩
  show k0_pay1 (k0_pay6 (iblk m c 0 t) (iblk m c 2 t) (iblk m c 6 t) (iblk m c 7 t) (iblk m c 1 t) (iblk m c 5 t)) (iblk m c 3 t) (ix2 p q)
    = stepZ (V m c main_arg0) (V m c main_arg1) (V m c main_arg2) (V m c main_arg3) (V m c main_arg5) (V m c main_arg6) (V m c main_arg7) (((cfg0.win 10).blk t).view.emb (ix2 p q))
  refine (spikes_at (iblk m c 0 t) (iblk m c 1 t) (iblk m c 2 t) (iblk m c 3 t) (iblk m c 5 t) (iblk m c 6 t) (iblk m c 7 t) p q).trans ?_
  obtain ⟨e0, e1⟩ := idx10 t
  have h0 : ((((cfg0.win 10).blk t).view.emb (ix2 p q)) 0).val = t.val * 256 + p.val := by
    show win0_10.index t (0 : Fin 2) * 256 + 1 * p.val = _; omega
  have h1 : (((cfg0.win 10).blk t).view.emb (ix2 p q)) 1 = q :=
    Fin.ext (by show win0_10.index t (1 : Fin 2) * 2048 + 1 * q.val = q.val; omega)
  unfold stepZ
  rw [h1, read0 m c t p _ h0, read1 m c t p _ h0, read2 m c t p _ h0, read3 m c t p _ h0, read5 m c t p _ h0, read6 m c t, read7 m c t]

/-- An entry of the array is in point `t`'s block iff each coordinate is in the block's range on its axis. -/
theorem mem_blk10 (t : Fin cfg0.N) (i : S4096x2048.Idx) :
    i ∈ ((cfg0.win 10).blk t).view.set ↔ ∀ a : Fin 2, win0_10.index t a * S256x2048.size a ≤ (i a).val ∧ (i a).val < win0_10.index t a * S256x2048.size a + S256x2048.size a := by
  show i ∈ ((View.whole main_v0_1).slice (win0_10.rect t)).set ↔ _
  rw [View.set_slice_whole, Rect.mem_set_unit]
  exact Iff.rfl

/-- Every entry is in some point's block: row i is in block i / 256. -/
theorem cover10 (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  have hN : grid0.N = 16 := N_0
  let t : Fin cfg0.N := ⟨(i 0).val / 256, by show _ < grid0.N; omega⟩
  have ht : t.val = (i 0).val / 256 := rfl
  obtain ⟨e0, e1⟩ := idx10 t
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 2048 ≤ (i 1).val ∧ (i 1).val < win0_10.index t (1 : Fin 2) * 2048 + 2048; omega

/-- The array after the run is the step's. -/
theorem final10 (c : Dev nD) :
    (dats m 0 c).arrAt 10 cfg0.N = stepZ (V m c main_arg0) (V m c main_arg1) (V m c main_arg2) (V m c main_arg3) (V m c main_arg5) (V m c main_arg6) (V m c main_arg7) :=
  (dats m 0 c).arrAt_eq_of_cover 10 _ (fun t _ => flushed10_eq m c t) cover10

/-! ## Output window 11: the membrane potential -/

/-- What point `t` writes back is block `t` of the step's array: rows 256 t to 256 t + 255, every column. -/
theorem flushed11_eq (c : Dev nD) (t : Fin cfg0.N) :
    (dats m 0 c).flushed 11 t
      = ((cfg0.win 11).blk t).view.read (Elt Ideal) (stepV (V m c main_arg0) (V m c main_arg1) (V m c main_arg2) (V m c main_arg6) (V m c main_arg7)) := by
  rw [Cert.KernelIdeal.Value.flushed11 m c t]
  unfold out0_11
  rw [View.canon_unit_zero hz]
  simp only [View.ld_unit_zero (S := S256x1024) hz, View.ld_unit_zero (S := S256x2048) hz, View.ld_unit_zero (S := S1024x2048) hz, View.ld_unit_zero (S := S2048x2048) hz, View.ld_unit_zero (S := S2048x1024) hz]
  funext j
  obtain ⟨p, q, rfl⟩ : ∃ (p : Fin 256) (q : Fin 2048), j = ix2 p q := ⟨j 0, j 1, eq_ix2 j⟩
  show k0_pay4 (iblk m c 0 t) (iblk m c 2 t) (iblk m c 6 t) (iblk m c 7 t) (iblk m c 1 t) (ix2 p q)
    = stepV (V m c main_arg0) (V m c main_arg1) (V m c main_arg2) (V m c main_arg6) (V m c main_arg7) (((cfg0.win 11).blk t).view.emb (ix2 p q))
  refine (potential_at (iblk m c 0 t) (iblk m c 1 t) (iblk m c 2 t) (iblk m c 6 t) (iblk m c 7 t) p q).trans ?_
  obtain ⟨e0, e1⟩ := idx11 t
  have h0 : ((((cfg0.win 11).blk t).view.emb (ix2 p q)) 0).val = t.val * 256 + p.val := by
    show win0_11.index t (0 : Fin 2) * 256 + 1 * p.val = _; omega
  have h1 : (((cfg0.win 11).blk t).view.emb (ix2 p q)) 1 = q :=
    Fin.ext (by show win0_11.index t (1 : Fin 2) * 2048 + 1 * q.val = q.val; omega)
  unfold stepV
  rw [h1, read0 m c t p _ h0, read1 m c t p _ h0, read2 m c t p _ h0, read6 m c t, read7 m c t]

/-- An entry of the array is in point `t`'s block iff each coordinate is in the block's range on its axis. -/
theorem mem_blk11 (t : Fin cfg0.N) (i : S4096x2048.Idx) :
    i ∈ ((cfg0.win 11).blk t).view.set ↔ ∀ a : Fin 2, win0_11.index t a * S256x2048.size a ≤ (i a).val ∧ (i a).val < win0_11.index t a * S256x2048.size a + S256x2048.size a := by
  show i ∈ ((View.whole main_v0_2).slice (win0_11.rect t)).set ↔ _
  rw [View.set_slice_whole, Rect.mem_set_unit]
  exact Iff.rfl

/-- Every entry is in some point's block: row i is in block i / 256. -/
theorem cover11 (i : S4096x2048.Idx) :
    ∃ t : Fin cfg0.N, (cfg0.win 11).flush t = true ∧ i ∈ ((cfg0.win 11).blk t).view.set := by
  have hi0 : (i 0).val < 4096 := (i 0).isLt
  have hi1 : (i 1).val < 2048 := (i 1).isLt
  have hN : grid0.N = 16 := N_0
  let t : Fin cfg0.N := ⟨(i 0).val / 256, by show _ < grid0.N; omega⟩
  have ht : t.val = (i 0).val / 256 := rfl
  obtain ⟨e0, e1⟩ := idx11 t
  refine ⟨t, flush0_11 t, ?_⟩
  rw [mem_blk11]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 2048 ≤ (i 1).val ∧ (i 1).val < win0_11.index t (1 : Fin 2) * 2048 + 2048; omega

/-- The array after the run is the step's. -/
theorem final11 (c : Dev nD) :
    (dats m 0 c).arrAt 11 cfg0.N = stepV (V m c main_arg0) (V m c main_arg1) (V m c main_arg2) (V m c main_arg6) (V m c main_arg7) :=
  (dats m 0 c).arrAt_eq_of_cover 11 _ (fun t _ => flushed11_eq m c t) cover11

/-! ## Output window 12: the refractory counter -/

/-- What point `t` writes back is block `t` of the step's array: rows 256 t to 256 t + 255, every column. -/
theorem flushed12_eq (c : Dev nD) (t : Fin cfg0.N) :
    (dats m 0 c).flushed 12 t
      = ((cfg0.win 12).blk t).view.read (Elt Ideal) (stepR (V m c main_arg0) (V m c main_arg1) (V m c main_arg2) (V m c main_arg3) (V m c main_arg5) (V m c main_arg6) (V m c main_arg7)) := by
  rw [Cert.KernelIdeal.Value.flushed12 m c t]
  unfold out0_12
  rw [View.canon_unit_zero hz]
  simp only [View.ld_unit_zero (S := S256x1024) hz, View.ld_unit_zero (S := S256x2048) hz, View.ld_unit_zero (S := S1024x2048) hz, View.ld_unit_zero (S := S2048x2048) hz, View.ld_unit_zero (S := S2048x1024) hz]
  funext j
  obtain ⟨p, q, rfl⟩ : ∃ (p : Fin 256) (q : Fin 2048), j = ix2 p q := ⟨j 0, j 1, eq_ix2 j⟩
  show k0_pay2 (k0_pay6 (iblk m c 0 t) (iblk m c 2 t) (iblk m c 6 t) (iblk m c 7 t) (iblk m c 1 t) (iblk m c 5 t)) (iblk m c 3 t) (ix2 p q)
    = stepR (V m c main_arg0) (V m c main_arg1) (V m c main_arg2) (V m c main_arg3) (V m c main_arg5) (V m c main_arg6) (V m c main_arg7) (((cfg0.win 12).blk t).view.emb (ix2 p q))
  refine (refractory_at (iblk m c 0 t) (iblk m c 1 t) (iblk m c 2 t) (iblk m c 3 t) (iblk m c 5 t) (iblk m c 6 t) (iblk m c 7 t) p q).trans ?_
  obtain ⟨e0, e1⟩ := idx12 t
  have h0 : ((((cfg0.win 12).blk t).view.emb (ix2 p q)) 0).val = t.val * 256 + p.val := by
    show win0_12.index t (0 : Fin 2) * 256 + 1 * p.val = _; omega
  have h1 : (((cfg0.win 12).blk t).view.emb (ix2 p q)) 1 = q :=
    Fin.ext (by show win0_12.index t (1 : Fin 2) * 2048 + 1 * q.val = q.val; omega)
  unfold stepR
  rw [h1, read0 m c t p _ h0, read1 m c t p _ h0, read2 m c t p _ h0, read3 m c t p _ h0, read5 m c t p _ h0, read6 m c t, read7 m c t]

/-- An entry of the array is in point `t`'s block iff each coordinate is in the block's range on its axis. -/
theorem mem_blk12 (t : Fin cfg0.N) (i : S4096x2048.Idx) :
    i ∈ ((cfg0.win 12).blk t).view.set ↔ ∀ a : Fin 2, win0_12.index t a * S256x2048.size a ≤ (i a).val ∧ (i a).val < win0_12.index t a * S256x2048.size a + S256x2048.size a := by
  show i ∈ ((View.whole main_v0_3).slice (win0_12.rect t)).set ↔ _
  rw [View.set_slice_whole, Rect.mem_set_unit]
  exact Iff.rfl

/-- Every entry is in some point's block: row i is in block i / 256. -/
theorem cover12 (i : S4096x2048.Idx) :
    ∃ t : Fin cfg0.N, (cfg0.win 12).flush t = true ∧ i ∈ ((cfg0.win 12).blk t).view.set := by
  have hi0 : (i 0).val < 4096 := (i 0).isLt
  have hi1 : (i 1).val < 2048 := (i 1).isLt
  have hN : grid0.N = 16 := N_0
  let t : Fin cfg0.N := ⟨(i 0).val / 256, by show _ < grid0.N; omega⟩
  have ht : t.val = (i 0).val / 256 := rfl
  obtain ⟨e0, e1⟩ := idx12 t
  refine ⟨t, flush0_12 t, ?_⟩
  rw [mem_blk12]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 2048 ≤ (i 1).val ∧ (i 1).val < win0_12.index t (1 : Fin 2) * 2048 + 2048; omega

/-- The array after the run is the step's. -/
theorem final12 (c : Dev nD) :
    (dats m 0 c).arrAt 12 cfg0.N = stepR (V m c main_arg0) (V m c main_arg1) (V m c main_arg2) (V m c main_arg3) (V m c main_arg5) (V m c main_arg6) (V m c main_arg7) :=
  (dats m 0 c).arrAt_eq_of_cover 12 _ (fun t _ => flushed12_eq m c t) cover12

/-! ## Output window 13: the adaptation variable -/

/-- What point `t` writes back is block `t` of the step's array: rows 256 t to 256 t + 255, every column. -/
theorem flushed13_eq (c : Dev nD) (t : Fin cfg0.N) :
    (dats m 0 c).flushed 13 t
      = ((cfg0.win 13).blk t).view.read (Elt Ideal) (stepB (V m c main_arg2) (V m c main_arg5)) := by
  rw [Cert.KernelIdeal.Value.flushed13 m c t]
  unfold out0_13
  rw [View.canon_unit_zero hz]
  simp only [View.ld_unit_zero (S := S256x1024) hz, View.ld_unit_zero (S := S256x2048) hz, View.ld_unit_zero (S := S1024x2048) hz, View.ld_unit_zero (S := S2048x2048) hz, View.ld_unit_zero (S := S2048x1024) hz]
  funext j
  obtain ⟨p, q, rfl⟩ : ∃ (p : Fin 256) (q : Fin 2048), j = ix2 p q := ⟨j 0, j 1, eq_ix2 j⟩
  show k0_pay5 (iblk m c 2 t) (iblk m c 5 t) (ix2 p q)
    = stepB (V m c main_arg2) (V m c main_arg5) (((cfg0.win 13).blk t).view.emb (ix2 p q))
  refine (adaptation_at (iblk m c 2 t) (iblk m c 5 t) p q).trans ?_
  obtain ⟨e0, e1⟩ := idx13 t
  have h0 : ((((cfg0.win 13).blk t).view.emb (ix2 p q)) 0).val = t.val * 256 + p.val := by
    show win0_13.index t (0 : Fin 2) * 256 + 1 * p.val = _; omega
  have h1 : (((cfg0.win 13).blk t).view.emb (ix2 p q)) 1 = q :=
    Fin.ext (by show win0_13.index t (1 : Fin 2) * 2048 + 1 * q.val = q.val; omega)
  unfold stepB
  rw [h1, read2 m c t p _ h0, read5 m c t p _ h0]

/-- An entry of the array is in point `t`'s block iff each coordinate is in the block's range on its axis. -/
theorem mem_blk13 (t : Fin cfg0.N) (i : S4096x2048.Idx) :
    i ∈ ((cfg0.win 13).blk t).view.set ↔ ∀ a : Fin 2, win0_13.index t a * S256x2048.size a ≤ (i a).val ∧ (i a).val < win0_13.index t a * S256x2048.size a + S256x2048.size a := by
  show i ∈ ((View.whole main_v0_4).slice (win0_13.rect t)).set ↔ _
  rw [View.set_slice_whole, Rect.mem_set_unit]
  exact Iff.rfl

/-- Every entry is in some point's block: row i is in block i / 256. -/
theorem cover13 (i : S4096x2048.Idx) :
    ∃ t : Fin cfg0.N, (cfg0.win 13).flush t = true ∧ i ∈ ((cfg0.win 13).blk t).view.set := by
  have hi0 : (i 0).val < 4096 := (i 0).isLt
  have hi1 : (i 1).val < 2048 := (i 1).isLt
  have hN : grid0.N = 16 := N_0
  let t : Fin cfg0.N := ⟨(i 0).val / 256, by show _ < grid0.N; omega⟩
  have ht : t.val = (i 0).val / 256 := rfl
  obtain ⟨e0, e1⟩ := idx13 t
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 2048 ≤ (i 1).val ∧ (i 1).val < win0_13.index t (1 : Fin 2) * 2048 + 2048; omega

/-- The array after the run is the step's. -/
theorem final13 (c : Dev nD) :
    (dats m 0 c).arrAt 13 cfg0.N = stepB (V m c main_arg2) (V m c main_arg5) :=
  (dats m 0 c).arrAt_eq_of_cover 13 _ (fun t _ => flushed13_eq m c t) cover13

/-! ## The run -/

/-- Every weakly fair execution of the kernel terminates with the five results at the step's arrays of the argument
    arrays, and the arguments unchanged. -/
theorem run : θ_run defs (onTc (τ := τ) (main (F := Ideal))) ⟨m, fun _ => 0, ρ⟩ fun r => ∀ c : Dev nD,
      r.2.mem ((c : Thread nD τ).loc main_v0_0) = stepOut (V m c main_arg0) (V m c main_arg4) (V m c main_arg1) (V m c main_arg2) (V m c main_arg3) (V m c main_arg5) (V m c main_arg6) (V m c main_arg7) (V m c main_arg8)
      ∧ r.2.mem ((c : Thread nD τ).loc main_v0_1) = stepZ (V m c main_arg0) (V m c main_arg1) (V m c main_arg2) (V m c main_arg3) (V m c main_arg5) (V m c main_arg6) (V m c main_arg7)
      ∧ r.2.mem ((c : Thread nD τ).loc main_v0_2) = stepV (V m c main_arg0) (V m c main_arg1) (V m c main_arg2) (V m c main_arg6) (V m c main_arg7)
      ∧ r.2.mem ((c : Thread nD τ).loc main_v0_3) = stepR (V m c main_arg0) (V m c main_arg1) (V m c main_arg2) (V m c main_arg3) (V m c main_arg5) (V m c main_arg6) (V m c main_arg7)
      ∧ r.2.mem ((c : Thread nD τ).loc main_v0_4) = stepB (V m c main_arg2) (V m c main_arg5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c),
      (h c).2.2.1.trans (final11 m c), (h c).2.2.2.1.trans (final12 m c), (h c).2.2.2.2.1.trans (final13 m c),
      (h c).2.2.2.2.2⟩)
    (Cert.KernelIdeal.Value.run_blocks m ρ)

end Cert.Lsnn.Blocks

end
-- ==== Proof.RefIsSpec.lean ====
/-
  The reference program computes the row-by-row step: each of its five results, read at an entry (r, q), is the
  step's function of row r of the batch arrays and of the weight matrices.

  The reference's operations are read one at a time from the generated index-by-index lemmas. The one operation they
  leave is the adaptation-strength vector, a concatenation of 1024 zeros and 1024 copies of the strength: an entry
  q < 1024 falls in the first piece, an entry 1024 <= q in the second at q - 1024. The three matrix products are
  plain sums over the contracted index, and the entry (r, q) of each reads row r of its left operand.
-/
import proofs.«104655_j12575664243448_2_alg».proof.Proof.Gen.ReferenceIdeal.Read
import proofs.«104655_j12575664243448_2_alg».proof.Proof.Spec
import Idealize.ShloMosaic.Lib.Pipeline.Value
import Idealize.ShloMosaic.Lib.ValueIdx
import Idealize.ShloMosaic.PureOps.Ideal.Laws

noncomputable section

namespace Cert.Lsnn.Ref

open Cert.ReferenceIdeal Cert.ReferenceIdeal.Read Idealize.ShloMosaic Idealize.ShloMosaic.ValueIdx Cert.Lsnn

variable (x0 x4 : (⟨S4096x1024, .f32⟩ : BufTy).Contents (Elt Ideal))
variable (x1 x2 x3 x5 : (⟨S4096x2048, .f32⟩ : BufTy).Contents (Elt Ideal))
variable (x6 : (⟨S1024x2048, .f32⟩ : BufTy).Contents (Elt Ideal))
variable (x7 : (⟨S2048x2048, .f32⟩ : BufTy).Contents (Elt Ideal))
variable (x8 : (⟨S2048x1024, .f32⟩ : BufTy).Contents (Elt Ideal))

/-! ## The contracted index of each matrix product, at an entry given by its coordinates -/

theorem lidx12 (r : Fin 4096) (q : Fin 2048) (k : Fin 1024) : lidx_main_v12 (ix2 r q) k = ix2 r k :=
  funext fun a => Fin.ext (by match a with | ⟨0, _⟩ => rfl | ⟨1, _⟩ => rfl)
theorem ridx12 (r : Fin 4096) (q : Fin 2048) (k : Fin 1024) : ridx_main_v12 (ix2 r q) k = ix2 k q :=
  funext fun a => Fin.ext (by match a with | ⟨0, _⟩ => rfl | ⟨1, _⟩ => rfl)
theorem lidx13 (r : Fin 4096) (q : Fin 2048) (k : Fin 2048) : lidx_main_v13 (ix2 r q) k = ix2 r k :=
  funext fun a => Fin.ext (by match a with | ⟨0, _⟩ => rfl | ⟨1, _⟩ => rfl)
theorem ridx13 (r : Fin 4096) (q : Fin 2048) (k : Fin 2048) : ridx_main_v13 (ix2 r q) k = ix2 k q :=
  funext fun a => Fin.ext (by match a with | ⟨0, _⟩ => rfl | ⟨1, _⟩ => rfl)
theorem lidx38 (r : Fin 4096) (j : Fin 1024) (k : Fin 2048) : lidx_main_v38 (ix2 r j) k = ix2 r k :=
  funext fun a => Fin.ext (by match a with | ⟨0, _⟩ => rfl | ⟨1, _⟩ => rfl)
theorem ridx38 (r : Fin 4096) (j : Fin 1024) (k : Fin 2048) : ridx_main_v38 (ix2 r j) k = ix2 k j :=
  funext fun a => Fin.ext (by match a with | ⟨0, _⟩ => rfl | ⟨1, _⟩ => rfl)

/-! ## The five results, stage by stage -/

/-- The new adaptation variable at (r, q). -/
theorem newB_eq (r : Fin 4096) (q : Fin 2048) :
    val_main_v7 (F := Ideal) x2 x5 (ix2 r q) = newB (fun k => x2 (ix2 r k)) (fun k => x5 (ix2 r k)) q := by
  rw [val_main_v7_apply, val_main_v6_apply, val_main_v5_apply, val_main_cst_1_apply]
  rfl

/-- The adaptation-strength array at (r, q): the concatenated vector at q, whatever the row. -/
theorem beta_eq (r : Fin 4096) (q : Fin 2048) : val_main_v8 (F := Ideal) (ix2 r q) = beta q := by
  rw [val_main_v8_apply, val_main_v4_apply]
  unfold val_main_v3 beta
  have hq : q.val < 2048 := q.isLt
  by_cases h : q.val < 1024
  · rw [if_pos h]
    refine (concatenate_pair_apply_left (0 : Fin S2048.rank) _ _ Cert.ReferenceIdeal.Gen.concatenates_S1024_S1024_S2048_d0 _ rfl
      (ix1 (⟨q.val, h⟩ : Fin 1024)) (fun b => by match b with | ⟨0, _⟩ => rfl)).trans ?_
    rw [val_main_v0_apply, val_main_cst_apply]
    rfl
  · rw [if_neg h]
    refine (concatenate_pair_apply_right (0 : Fin S2048.rank) _ _ Cert.ReferenceIdeal.Gen.concatenates_S1024_S1024_S2048_d0 _ rfl rfl
      (ix1 (⟨q.val - 1024, by omega⟩ : Fin 1024)) (fun b hb => by match b with | ⟨0, _⟩ => exact absurd rfl hb)
      (by show (q.val - 1024) + 1024 = q.val; omega)).trans ?_
    rw [val_main_v2_apply, val_main_v1_apply, val_main_cst_0_apply]
    rfl

/-- The new membrane potential at (r, q). -/
theorem newV_eq (r : Fin 4096) (q : Fin 2048) :
    val_main_v20 (F := Ideal) x0 x1 x2 x6 x7 (ix2 r q)
      = newV (fun k => x0 (ix2 r k)) (fun k => x1 (ix2 r k)) (fun k => x2 (ix2 r k)) x6 x7 q := by
  rw [val_main_v20_apply, val_main_v17_apply, val_main_v16_apply, val_main_v15_apply, val_main_cst_3_apply,
    val_main_v14_apply, val_main_v12_apply, val_main_v13_apply, val_main_v19_apply, val_main_v18_apply,
    val_main_cst_4_apply]
  simp only [lidx12, ridx12, lidx13, ridx13]
  rfl

/-- The potential over the adaptive threshold, in units of the threshold, at (r, q). -/
theorem scaled_eq (r : Fin 4096) (q : Fin 2048) :
    val_main_v23 (F := Ideal) x0 x1 x2 x5 x6 x7 (ix2 r q)
      = scaled (fun k => x0 (ix2 r k)) (fun k => x1 (ix2 r k)) (fun k => x2 (ix2 r k)) (fun k => x5 (ix2 r k)) x6 x7 q := by
  rw [val_main_v23_apply, val_main_v22_apply, val_main_cst_5_apply, val_main_v21_apply, val_main_v11_apply,
    val_main_v10_apply, val_main_cst_2_apply, val_main_v9_apply, newV_eq, newB_eq, beta_eq]
  rfl

/-- The new spikes at (r, q). -/
theorem newZ_eq (r : Fin 4096) (q : Fin 2048) :
    val_main_v29 (F := Ideal) x0 x1 x2 x3 x5 x6 x7 (ix2 r q)
      = newZ (fun k => x0 (ix2 r k)) (fun k => x1 (ix2 r k)) (fun k => x2 (ix2 r k)) (fun k => x3 (ix2 r k))
          (fun k => x5 (ix2 r k)) x6 x7 q := by
  rw [val_main_v29_apply, val_main_v25_apply, val_main_v24_apply, val_main_cst_6_apply, val_main_call0_v1_apply,
    val_main_call0_v0_apply, val_main_cst_8_apply, val_main_v28_apply, val_main_v27_apply, val_main_v26_apply,
    val_main_cst_7_apply, scaled_eq]
  rfl

/-- The new refractory counter at (r, q). -/
theorem newR_eq (r : Fin 4096) (q : Fin 2048) :
    val_main_v35 (F := Ideal) x0 x1 x2 x3 x5 x6 x7 (ix2 r q)
      = newR (fun k => x0 (ix2 r k)) (fun k => x1 (ix2 r k)) (fun k => x2 (ix2 r k)) (fun k => x3 (ix2 r k))
          (fun k => x5 (ix2 r k)) x6 x7 q := by
  rw [val_main_v35_apply, val_main_call1_v4_apply, val_main_call1_v3_apply, val_main_cst_12_apply,
    val_main_call1_v2_apply, val_main_call1_v1_apply, val_main_call1_v0_apply, val_main_cst_11_apply,
    val_main_v34_apply, val_main_v33_apply, val_main_cst_10_apply, val_main_v32_apply, val_main_v31_apply,
    val_main_v30_apply, val_main_cst_9_apply, newZ_eq]
  rfl

/-- The new output trace at (r, j): the spikes of row r through the output weights. -/
theorem newOut_eq (r : Fin 4096) (j : Fin 1024) :
    val_main_v39 (F := Ideal) x0 x1 x2 x3 x4 x5 x6 x7 x8 (ix2 r j)
      = newOut (fun k => x0 (ix2 r k)) (fun k => x4 (ix2 r k)) (fun k => x1 (ix2 r k)) (fun k => x2 (ix2 r k))
          (fun k => x3 (ix2 r k)) (fun k => x5 (ix2 r k)) x6 x7 x8 j := by
  rw [val_main_v39_apply, val_main_v37_apply, val_main_v36_apply, val_main_cst_13_apply, val_main_v38_apply]
  simp only [lidx38, ridx38, newZ_eq]
  rfl

end Cert.Lsnn.Ref

end
-- ==== Proof.RefArrays.lean ====
/-
  The reference's five results are the step's arrays: each result's value at an entry (r, q) is the row-by-row step
  of row r, which is that array's entry.
-/
import proofs.«104655_j12575664243448_2_alg».proof.Proof.RefIsSpec
import proofs.«104655_j12575664243448_2_alg».proof.Proof.Arrays

noncomputable section

namespace Cert.Lsnn.Ref

open Cert.ReferenceIdeal Cert.ReferenceIdeal.Read Idealize.ShloMosaic Idealize.ShloMosaic.ValueIdx Cert.Lsnn

variable (x0 x4 : (⟨S4096x1024, .f32⟩ : BufTy).Contents (Elt Ideal))
variable (x1 x2 x3 x5 : (⟨S4096x2048, .f32⟩ : BufTy).Contents (Elt Ideal))
variable (x6 : (⟨S1024x2048, .f32⟩ : BufTy).Contents (Elt Ideal))
variable (x7 : (⟨S2048x2048, .f32⟩ : BufTy).Contents (Elt Ideal))
variable (x8 : (⟨S2048x1024, .f32⟩ : BufTy).Contents (Elt Ideal))

/-- The reference's new adaptation variable is the step's. -/
theorem refB : val_main_v7 (F := Ideal) x2 x5 = stepB x2 x5 := by
  funext i
  obtain ⟨r, q, rfl⟩ : ∃ (r : Fin 4096) (q : Fin 2048), i = ix2 r q := ⟨i 0, i 1, eq_ix2 i⟩
  exact newB_eq x2 x5 r q

/-- The reference's new membrane potential is the step's. -/
theorem refV : val_main_v20 (F := Ideal) x0 x1 x2 x6 x7 = stepV x0 x1 x2 x6 x7 := by
  funext i
  obtain ⟨r, q, rfl⟩ : ∃ (r : Fin 4096) (q : Fin 2048), i = ix2 r q := ⟨i 0, i 1, eq_ix2 i⟩
  exact newV_eq x0 x1 x2 x6 x7 r q

/-- The reference's new spikes are the step's. -/
theorem refZ : val_main_v29 (F := Ideal) x0 x1 x2 x3 x5 x6 x7 = stepZ x0 x1 x2 x3 x5 x6 x7 := by
  funext i
  obtain ⟨r, q, rfl⟩ : ∃ (r : Fin 4096) (q : Fin 2048), i = ix2 r q := ⟨i 0, i 1, eq_ix2 i⟩
  exact newZ_eq x0 x1 x2 x3 x5 x6 x7 r q

/-- The reference's new refractory counter is the step's. -/
theorem refR : val_main_v35 (F := Ideal) x0 x1 x2 x3 x5 x6 x7 = stepR x0 x1 x2 x3 x5 x6 x7 := by
  funext i
  obtain ⟨r, q, rfl⟩ : ∃ (r : Fin 4096) (q : Fin 2048), i = ix2 r q := ⟨i 0, i 1, eq_ix2 i⟩
  exact newR_eq x0 x1 x2 x3 x5 x6 x7 r q

/-- The reference's new output trace is the step's. -/
theorem refOut : val_main_v39 (F := Ideal) x0 x1 x2 x3 x4 x5 x6 x7 x8 = stepOut x0 x4 x1 x2 x3 x5 x6 x7 x8 := by
  funext i
  obtain ⟨r, j, rfl⟩ : ∃ (r : Fin 4096) (j : Fin 1024), i = ix2 r j := ⟨i 0, i 1, eq_ix2 i⟩
  exact newOut_eq x0 x4 x1 x2 x3 x5 x6 x7 x8 r j

end Cert.Lsnn.Ref

end
-- ==== Proof.lean ====
/-
  One step of an adaptive spiking recurrent cell: a fused kernel over 16 blocks of 256 batch rows against the plain
  array program, equal on the extended reals.

  Both programs compute, for every batch row, the same tree of operations with the same constants (the same 32-bit
  words): the synaptic current as two matrix products, the leaky membrane update, the adaptation update, the
  adaptive threshold, the firing test, the refractory mask and counter, and the output trace as a third matrix
  product of the new spikes. They differ only in spelling: the kernel tiles the batch and multiplies blocks, builds
  the adaptation-strength vector by comparing a column number with 1024 where the reference concatenates two
  constant vectors, and turns the firing bit into a number through a 32-bit integer where the reference converts the
  bit directly. At exact arithmetic each pair of spellings is one value, entry by entry, so no algebraic law and no
  finiteness of the inputs is needed.

  Proof/Spec.lean states the step row by row and Proof/Arrays.lean over whole arrays; Proof/RefIsSpec.lean and
  Proof/RefArrays.lean read the reference's run as that step; Proof/KernelPayload.lean reads the kernel body's
  arithmetic at an entry of a block, and Proof/KernelBlocks.lean assembles the 16 blocks into the arrays. The
  idealized kernel is the kernel's own text read at exact arithmetic (no operation was rewritten), so there is
  nothing to preserve.
-/
import proofs.«104655_j12575664243448_2_alg».proof.Defs
import proofs.«104655_j12575664243448_2_alg».proof.Proof.Gen.Kernel
import proofs.«104655_j12575664243448_2_alg».proof.Proof.Gen.Kernel.Skeleton
import proofs.«104655_j12575664243448_2_alg».proof.Proof.Gen.Kernel.Launch
import proofs.«104655_j12575664243448_2_alg».proof.Proof.Gen.Kernel.Points
import proofs.«104655_j12575664243448_2_alg».proof.Proof.Gen.Kernel.Frame
import proofs.«104655_j12575664243448_2_alg».proof.Proof.Gen.KernelIdeal
import proofs.«104655_j12575664243448_2_alg».proof.Proof.Gen.KernelIdeal.Skeleton
import proofs.«104655_j12575664243448_2_alg».proof.Proof.Gen.KernelIdeal.Launch
import proofs.«104655_j12575664243448_2_alg».proof.Proof.Gen.KernelIdeal.Points
import proofs.«104655_j12575664243448_2_alg».proof.Proof.Gen.KernelIdeal.Frame
import proofs.«104655_j12575664243448_2_alg».proof.Proof.Gen.ReferenceIdeal
import proofs.«104655_j12575664243448_2_alg».proof.Proof.Gen.Pre_finite_inputs
import proofs.«104655_j12575664243448_2_alg».proof.Proof.Gen.KernelIdeal.Value
import proofs.«104655_j12575664243448_2_alg».proof.Proof.Gen.ReferenceIdeal.Run
import proofs.«104655_j12575664243448_2_alg».proof.Proof.Gen.ReferenceIdeal.Read
import proofs.«104655_j12575664243448_2_alg».proof.Proof.KernelBlocks
import proofs.«104655_j12575664243448_2_alg».proof.Proof.RefArrays
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_k : Cert.frame_Kernel := fun m ρ _ => Cert.Kernel.Gen.frame m ρ

/-- So does the kernel at exact arithmetic. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2.2.2.2)
    (Cert.ReferenceIdeal.Value.run (F := Ideal) m ρ)

/-- From memories that agree on the nine arguments, the kernel's five result arrays end as the step's arrays of the
    arguments (the blocks assembled), and so do the reference's (its run read as the step). -/
theorem algebraic : Cert.algebraic_KernelIdeal_ReferenceIdeal := by
  intro m ρ m' ρ' _ hagree
  refine ⟨_, _, _, _, _, Cert.Lsnn.Blocks.run m ρ, ?_⟩
  refine (θ_run Cert.ReferenceIdeal.defs _ _).mono (fun _ h c => ?_)
    (Cert.ReferenceIdeal.Value.run (F := Ideal) m' ρ')
  obtain ⟨a0, a1, a2, a3, a4, a5, a6, a7, a8⟩ := hagree c
  obtain ⟨r0, r1, r2, r3, r4, rest⟩ := h c
  refine ⟨r0.trans ?_, r1.trans ?_, r2.trans ?_, r3.trans ?_, r4.trans ?_, rest⟩
  · rw [Cert.ReferenceIdeal.Read.val_main_v39_eq, Cert.Lsnn.Ref.refOut, a0, a1, a2, a3, a4, a5, a6, a7, a8]
  · rw [Cert.ReferenceIdeal.Read.val_main_v29_eq, Cert.Lsnn.Ref.refZ, a0, a1, a2, a3, a5, a6, a7]
  · rw [Cert.ReferenceIdeal.Read.val_main_v20_eq, Cert.Lsnn.Ref.refV, a0, a1, a2, a6, a7]
  · rw [Cert.ReferenceIdeal.Read.val_main_v35_eq, Cert.Lsnn.Ref.refR, a0, a1, a2, a3, a5, a6, a7]
  · rw [Cert.ReferenceIdeal.Read.val_main_v7_eq, Cert.Lsnn.Ref.refB, a2, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
